-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_sqrt_hd" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S6144x2048 : Shape := ⟨2, ![6144, 2048]⟩
abbrev S2048x2048 : Shape := ⟨2, ![2048, 2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2x2048x2048 .f32) (main_arg1 : FVec F S6144x2048 .f32) (main_arg2 : FVec F S2048x2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S2x2048x2048 : Shape := ⟨3, ![2, 2048, 2048]⟩
abbrev S6144x2048 : Shape := ⟨2, ![6144, 2048]⟩
abbrev S2048x2048 : Shape := ⟨2, ![2048, 2048]⟩
abbrev S4096x2048 : Shape := ⟨2, ![4096, 2048]⟩
abbrev S4096x6144 : Shape := ⟨2, ![4096, 6144]⟩
abbrev S512x2048 : Shape := ⟨2, ![512, 2048]⟩
abbrev S1024x2048 : Shape := ⟨2, ![1024, 2048]⟩
abbrev S512x1024 : Shape := ⟨2, ![512, 1024]⟩
abbrev S1x1024x128 : Shape := ⟨3, ![1, 1024, 128]⟩
abbrev S1x2048x128 : Shape := ⟨3, ![1, 2048, 128]⟩
abbrev S1024x128 : Shape := ⟨2, ![1024, 128]⟩
abbrev S2048x128 : Shape := ⟨2, ![2048, 128]⟩
abbrev S1024 : Shape := ⟨1, ![1024]⟩
abbrev S1024x1 : Shape := ⟨2, ![1024, 1]⟩

abbrev nBuf : Space → Nat
  | .hbm => 18
  | .vmem => 20
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S2048x2048, .f32⟩
  | .hbm, ⟨3, _⟩ => ⟨S4096x2048, .f32⟩
  | .hbm, ⟨4, _⟩ => ⟨S4096x2048, .bf16⟩
  | .hbm, ⟨5, _⟩ => ⟨S6144x2048, .bf16⟩
  | .hbm, ⟨6, _⟩ => ⟨S2048x2048, .bf16⟩
  | .hbm, ⟨7, _⟩ => ⟨S4096x6144, .bf16⟩
  | .hbm, ⟨8, _⟩ => ⟨S4096x2048, .bf16⟩
  | .hbm, ⟨9, _⟩ => ⟨S2x2048x2048, .bf16⟩
  | .hbm, ⟨10, _⟩ => ⟨S4096x2048, .bf16⟩
  | .hbm, ⟨11, _⟩ => ⟨S2x2048x2048, .bf16⟩
  | .hbm, ⟨12, _⟩ => ⟨S4096x2048, .bf16⟩
  | .hbm, ⟨13, _⟩ => ⟨S2x2048x2048, .bf16⟩
  | .hbm, ⟨14, _⟩ => ⟨S2x2048x2048, .bf16⟩
  | .hbm, ⟨15, _⟩ => ⟨S4096x2048, .bf16⟩
  | .hbm, ⟨16, _⟩ => ⟨S4096x2048, .f32⟩
  | .hbm, ⟨17, _⟩ => ⟨S2x2048x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S512x2048, .bf16⟩
  | .local _ .vmem, ⟨15, _⟩ => ⟨S512x2048, .bf16⟩
  | .local _ .vmem, ⟨16, _⟩ => ⟨S1024x2048, .bf16⟩
  | .local _ .vmem, ⟨17, _⟩ => ⟨S1024x2048, .bf16⟩
  | .local _ .vmem, ⟨18, _⟩ => ⟨S512x1024, .f32⟩
  | .local _ .vmem, ⟨19, _⟩ => ⟨S512x1024, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 16, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S2x2048x2048_S4096x2048 : S2x2048x2048.ShapeCasts S4096x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  slices_S4096x6144_S4096x2048_0_0 : S4096x6144.Slices ![0, 0] S4096x2048
  shapeCasts_S4096x2048_S2x2048x2048 : S4096x2048.ShapeCasts S2x2048x2048
  slices_S4096x6144_S4096x2048_0_2048 : S4096x6144.Slices ![0, 2048] S4096x2048
  slices_S4096x6144_S4096x2048_0_4096 : S4096x6144.Slices ![0, 4096] S4096x2048
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S1024x2048_S1024 : S1024x2048.Reduces [1] S1024
  shapeCasts_S1024_S1024x1 : S1024.ShapeCasts S1024x1
  broadcasts_S1024x1_S1024x2048 : S1024x1.Broadcasts S1024x2048
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  dot_S512x2048_S1024x2048_S512x1024_1_1_0_0_n_n_wf : DotDims.WF S512x2048 S1024x2048 S512x1024 [1] [1] [0] [0] [] []
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S6144x2048.size a
  hwx0_1 : ∀ i : grid0.Coords, EltTy.bits .bf16 = 32 ∨ (Rect.block (s := S6144x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x6144.size a
  hwx0_2 : ∀ i : grid0.Coords, EltTy.bits .bf16 = 32 ∨ (Rect.block (s := S4096x6144) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S2x2048x2048.size a
  hwx1_0 : ∀ i : grid1.Coords, EltTy.bits .bf16 = 32 ∨ (Rect.block (s := S2x2048x2048) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x2048.size a
  hwx1_1 : ∀ i : grid1.Coords, EltTy.bits .bf16 = 32 ∨ (Rect.block (s := S2x2048x2048) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x2048.size a
  hwx1_2 : ∀ i : grid1.Coords, EltTy.bits .bf16 = 32 ∨ (Rect.block (s := S2x2048x2048) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S2x2048x2048.size a
  hwx1_3 : ∀ i : grid1.Coords, EltTy.bits .bf16 = 32 ∨ (Rect.block (s := S2x2048x2048) S1x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .bf16 = 32 ∨ (Rect.block (s := S4096x2048) S512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S2048x2048.size a
  hwx2_1 : ∀ i : grid2.Coords, EltTy.bits .bf16 = 32 ∨ (Rect.block (s := S2048x2048) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x2048.size a
  hwx2_2 : ∀ i : grid2.Coords, EltTy.bits .f32 = 32 ∨ (Rect.block (s := S4096x2048) S512x1024.size (cc2_transform_2 i) (hinb2_2 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x2048 : Shape := ⟨3, ![2, 2048, 2048]⟩
abbrev S6144x2048 : Shape := ⟨2, ![6144, 2048]⟩
abbrev S2048x2048 : Shape := ⟨2, ![2048, 2048]⟩
abbrev S2x2048x6144 : Shape := ⟨3, ![2, 2048, 6144]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S2048x2048, .f32⟩
  | .hbm, ⟨3, _⟩ => ⟨S2x2048x6144, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x16x128, .f32⟩
  | .hbm, ⟨8, _⟩ => ⟨S2x16x2048x128, .f32⟩
  | .hbm, ⟨9, _⟩ => ⟨S2x2048x16x128, .f32⟩
  | .hbm, ⟨10, _⟩ => ⟨S2x16x2048x128, .f32⟩
  | .hbm, ⟨11, _⟩ => ⟨S2x2048x16x128, .f32⟩
  | .hbm, ⟨12, _⟩ => ⟨S2x16x2048x128, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x128, .f32⟩
  | .hbm, ⟨32, _⟩ => ⟨S2x2048x16x128, .f32⟩
  | .hbm, ⟨33, _⟩ => ⟨S2x2048x2048, .f32⟩
  | .hbm, ⟨34, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  slices_S2x2048x6144_S2x2048x2048_0_0_0 : S2x2048x6144.Slices ![0, 0, 0] S2x2048x2048
  slices_S2x2048x6144_S2x2048x2048_0_0_2048 : S2x2048x6144.Slices ![0, 0, 2048] S2x2048x2048
  slices_S2x2048x6144_S2x2048x2048_0_0_4096 : S2x2048x6144.Slices ![0, 0, 4096] S2x2048x2048
  shapeCasts_S2x2048x2048_S2x2048x16x128 : S2x2048x2048.ShapeCasts S2x2048x16x128
  transposes_S2x2048x16x128_S2x16x2048x128_0_2_1_3 : S2x2048x16x128.Transposes [0, 2, 1, 3] S2x16x2048x128
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x2048x2048_S6144x2048_S2x2048x6144_2_1_01_0_n_n_wf : DotDims.WF S2x2048x2048 S6144x2048 S2x2048x6144 [2] [1] [0, 1] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]
  dot_S2x2048x2048_S2048x2048_S2x2048x2048_2_1_01_0_n_n_wf : DotDims.WF S2x2048x2048 S2048x2048 S2x2048x2048 [2] [1] [0, 1] [0] [] []

variable [Facts₀]

def dot_S2x2048x2048_S6144x2048_S2x2048x6144_2_1_01_0_n_n : DotDims S2x2048x2048 S6144x2048 S2x2048x6144 where
  lhsContracting := [2]
  rhsContracting := [1]
  lhsNonContracting := [0, 1]
  rhsNonContracting := [0]
  lhsBatch := []
  rhsBatch := []
  wf := dot_S2x2048x2048_S6144x2048_S2x2048x6144_2_1_01_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf
def dot_S2x2048x2048_S2048x2048_S2x2048x2048_2_1_01_0_n_n : DotDims S2x2048x2048 S2048x2048 S2x2048x2048 where
  lhsContracting := [2]
  rhsContracting := [1]
  lhsNonContracting := [0, 1]
  rhsNonContracting := [0]
  lhsBatch := []
  rhsBatch := []
  wf := dot_S2x2048x2048_S2048x2048_S2x2048x2048_2_1_01_0_n_n_wf

class Facts : Prop extends Facts₀ where

variable [Facts]
-- ==== Proof.SegRun.lean ====
/-
  The run of the idealized kernel program, with its result named.

  @main is seven segments: a stretch of host operations, the projection's region, a stretch, the attention
  region, a stretch, the output projection's region, a last stretch. Every unscoped buffer of the TensorCore
  is carried from segment to segment at known contents: after a stretch, the stretch's operations applied to
  the contents before it; after a region, the region's arrays at what its write-backs leave and every other
  buffer as it was. The last of these contents is `Gen.W7`. So every weakly fair execution terminates, faults
  nowhere, and ends with the result buffer at `Gen.W7 … main_v14` and the three arguments as launched.
  The value modules read `Gen.W7 … main_v14` back through the seven segments.
-/
import proofs.«125070_j85736137162885_2_alg».proof.Proof.Gen.KernelIdeal.Frame

set_option maxRecDepth 16384

noncomputable section

namespace Cert.KernelIdeal.SegRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents, and each argument ends as launched. -/
theorem run_result : θ_run defs (onTc (τ := τ) (main (F := F))) ⟨m, fun _ => 0, ρ⟩ (fun r => ∀ c : Dev nD,
      r.2.mem ((c.tc : Thread nD τ).loc main_v14) = W7 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v14 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.SegRun

end
-- ==== Proof.AttnSpec.lean ====
/-
  Scaled dot-product self-attention, as plain functions on the extended reals.

  One query row `q` against keys `k s` and values `v s` (s over the sequence): the scores are
  `(∑ d, q d * k s d) * scale`, the row's maximum `M` is the fold of `max` from `-∞`, the weights are
  `exp (score s - M) / ∑ s', exp (score s' - M)`, and the attended value at lane `d` is `∑ s, weight s * v s d`.
  `scale` is the rational `1048576 / 11863283`, the exact reciprocal of the real number `11863283 / 1048576`
  that the divisor pattern `0x413504F3` denotes — so dividing by that divisor and multiplying by `scale` are
  one operation on every extended real (`div_divisor`).

  `mmT A B` is the product of an `M × K` array with the transpose of an `N × K` array (a linear layer whose
  weight is stored output-major): entry `(r, n)` is `∑ k, A (r, k) * B (n, k)`.

  `heads Q K V` is multi-head attention over `[batch, position, 16 · 128]` arrays whose last axis is the
  sixteen heads' 128 lanes side by side: entry `(b, t, c)` attends with query row `(b, t)` and the keys and
  values of batch `b`, all restricted to the lanes of the head `c / 128` that `c` lies in, read at lane `c % 128`.
-/
import Idealize.ShloMosaic.PureOps.Ideal
import Idealize.ShloMosaic.PureOps.Ideal.Laws
import Idealize.ShloMosaic.Lib.ValueIdx

noncomputable section

namespace Cert.SelfAttn

open Idealize.ShloMosaic Idealize.ShloMosaic.ValueIdx

/-- The score scale: the reciprocal of the divisor `11863283 / 1048576`. -/
def scale : EReal := ((1048576 / 11863283 : ℝ) : EReal)

/-- The pattern of `-∞`, as the extended real it denotes. -/
def negInf : EReal := Ideal.ofBits .f32 0xFF800000#32

/-- A row's maximum: the fold of `max` over the row, from `-∞`. -/
def rowMax {n : Nat} (S : Fin n → EReal) : EReal := (Finset.univ : Finset (Fin n)).fold max negInf S

/-- A row shifted by its maximum and exponentiated. -/
def expRow {n : Nat} (S : Fin n → EReal) (s : Fin n) : EReal := Ideal.exp (S s - rowMax S)

/-- The softmax weights of a row. -/
def probs {n : Nat} (S : Fin n → EReal) (s : Fin n) : EReal := Ideal.div (expRow S s) (∑ s' : Fin n, expRow S s')

/-- The scaled scores of a query row against the keys. -/
def scores {n dk : Nat} (q : Fin dk → EReal) (k : Fin n → Fin dk → EReal) (s : Fin n) : EReal :=
  (∑ d : Fin dk, q d * k s d) * scale

/-- The attended value of a query row at lane `d`. -/
def attend {n dk dv : Nat} (q : Fin dk → EReal) (k : Fin n → Fin dk → EReal) (v : Fin n → Fin dv → EReal) (d : Fin dv) : EReal :=
  ∑ s : Fin n, probs (scores q k) s * v s d

/-- `A · Bᵀ`: entry `(r, n)` is the sum over `k` of `A (r, k) * B (n, k)`. -/
def mmT {M N K : Nat} (A : (⟨2, ![M, K]⟩ : Shape).Idx → EReal) (B : (⟨2, ![N, K]⟩ : Shape).Idx → EReal)
    (r : Fin M) (n : Fin N) : EReal := ∑ k : Fin K, A (ix2 r k) * B (ix2 n k)

/-- Lane `d` of the head that column `c` lies in, as a column. -/
def hd (c : Fin 2048) (d : Fin 128) : Fin 2048 := ⟨c.val / 128 * 128 + d.val, by have := c.isLt; have := d.isLt; omega⟩

/-- The lane of column `c` within its head. -/
def lane (c : Fin 2048) : Fin 128 := ⟨c.val % 128, Nat.mod_lt _ (by norm_num)⟩

/-- Multi-head attention of `[2, 2048, 16·128]` arrays at batch `b`, position `t`, column `c`. -/
def heads (Q K V : (⟨3, ![2, 2048, 2048]⟩ : Shape).Idx → EReal) (b : Fin 2) (t : Fin 2048) (c : Fin 2048) : EReal :=
  attend (fun d => Q (ix3 b t (hd c d))) (fun s d => K (ix3 b s (hd c d))) (fun s d => V (ix3 b s (hd c d))) (lane c)

/-! ## The three small laws that join the two programs -/

/-- The divisor pattern denotes the real `11863283 / 1048576`. -/
theorem ofBits_divisor : Ideal.ofBits .f32 0x413504F3#32 = ((11863283 / 1048576 : ℝ) : EReal) := by
  simp [Ideal.ofBits, Ideal.ieee, -EReal.coe_mul]; norm_num

/-- Dividing by the divisor is multiplying by `scale`, on every extended real. -/
theorem div_divisor (x : EReal) : Ideal.div x (Ideal.ofBits .f32 0x413504F3#32) = x * scale := by
  rw [ofBits_divisor, Ideal.div_coe (by norm_num : (11863283 / 1048576 : ℝ) ≠ 0)]
  unfold scale
  norm_num

/-- A row's maximum is at least `-∞`'s pattern, so taking the maximum with it once more changes nothing. -/
theorem max_negInf_rowMax {n : Nat} (S : Fin n → EReal) : max negInf (rowMax S) = rowMax S :=
  max_eq_right (Finset.le_fold_max (b := negInf) (f := S) (s := Finset.univ) negInf |>.mpr (Or.inl le_rfl))

/-- The zero pattern added in front of a sum changes nothing. -/
theorem zero_pattern_add (x : EReal) : Ideal.ofBits .f32 0x00000000#32 + x = x := by
  rw [Ideal.ofBits_zero_f32, zero_add]

end Cert.SelfAttn

end
-- ==== Proof.Bodies.lean ====
/-
  The three kernel bodies read as plain functions on the extended reals.

  Each kernel stores ONE value computed from the blocks it loaded.  Read at an index, at the ideal values
  (every float operation exact, every format change the identity):

  * the projection blocks (`proj_body`, `out_body`): a `[512, 2048]` block times the transpose of a
    `[1024, 2048]` block, accumulated into zero — entry `(r, n)` is `∑ k, A (r, k) * B (n, k)`, which is `mmT`;
  * the attention block (`attn_body`): for one head, the query rows `q` (`[1024, 128]`) against the keys and values
    (`[2048, 128]`).  The scores are `(∑ d, q (r, d) * k (s, d)) * scale`; each row's maximum is the fold of `max`
    from `-∞` over the row; the weights are `exp (score - max)` divided by their row sum; and the result at `(r, d)`
    is `∑ s, weight (r, s) * v (s, d)`.  That is `attend` of row `r` of `q` against `k` and `v`.

  The steps that are not pointwise each get one lemma read at an index built from coordinates: a product of two
  blocks (the sum over the contraction coordinate), a row maximum, a row sum, a column `[n] → [n, 1] → [n, m]`
  spread over its row, and the unit-axis casts `[1, n, m] ↔ [n, m]`.  Everything else is pointwise and unfolds.
-/
import proofs.«125070_j85736137162885_2_alg».proof.Proof.Gen.KernelIdeal.Skeleton
import proofs.«125070_j85736137162885_2_alg».proof.Proof.AttnSpec
import Idealize.ShloMosaic.PureOps.Ideal.Laws
import Idealize.ShloMosaic.PureOps.IdealRules
import Idealize.ShloMosaic.Lib.ValueIdx
import Idealize.ShloMosaic.Lib.Pipeline.Value
import Idealize.ShloMosaic.Lib.ValueLayout

noncomputable section

namespace Cert.KernelIdeal.Bodies

open Cert.KernelIdeal Cert.KernelIdeal.Gen Cert.SelfAttn Idealize.ShloMosaic Idealize.ShloMosaic.ValueIdx

/-! ## A block times a transposed block, into zero -/

theorem mm_proj_lhs_0 (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem mm_proj_lhs_1 (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
theorem mm_proj_rhs_0 (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem mm_proj_rhs_1 (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q
/-- The `[512, 2048] · [1024, 2048]ᵀ` product into the zero accumulator, at `(r, n)`: the sum over the shared
    last coordinate. -/
theorem mm_proj_apply (a : FVec Ideal S512x2048 .bf16) (b : FVec Ideal S1024x2048 .bf16) (r : Fin 512) (n : Fin 1024) :
    matmul dot_S512x2048_S1024x2048_S512x1024_1_1_0_0_n_n none a b (constant (F := Ideal) S512x1024 .f32 0x00000000#32) (ix2 r n)
      = ∑ k : Fin 2048, a (ix2 r k) * b (ix2 n k) := by
  simp only [matmul]
  rw [Ideal.matmul_constant_zero_apply, ← Equiv.sum_comp (contrEquiv1 dot_S512x2048_S1024x2048_S512x1024_1_1_0_0_n_n 2048 rfl rfl).symm]
  refine Finset.sum_congr rfl fun k _ => ?_
  have hk := contrEquiv1_symm_val dot_S512x2048_S1024x2048_S512x1024_1_1_0_0_n_n 2048 rfl rfl k
  have el : dot_S512x2048_S1024x2048_S512x1024_1_1_0_0_n_n.lhsIdx (ix2 r n) ((contrEquiv1 dot_S512x2048_S1024x2048_S512x1024_1_1_0_0_n_n 2048 rfl rfl).symm k) = ix2 r k :=
    funext fun c => Fin.ext (by
      match c with
      | ⟨0, _⟩ => exact mm_proj_lhs_0 _ _
      | ⟨1, _⟩ => exact (mm_proj_lhs_1 _ _).trans hk)
  have er : dot_S512x2048_S1024x2048_S512x1024_1_1_0_0_n_n.rhsIdx (ix2 r n) ((contrEquiv1 dot_S512x2048_S1024x2048_S512x1024_1_1_0_0_n_n 2048 rfl rfl).symm k) = ix2 n k :=
    funext fun c => Fin.ext (by
      match c with
      | ⟨0, _⟩ => exact mm_proj_rhs_0 _ _
      | ⟨1, _⟩ => exact (mm_proj_rhs_1 _ _).trans hk)
  rw [el, er]

/-- The first projection's block: `A · Bᵀ` (the narrowing of the result is the identity on extended reals). -/
theorem proj_body (x0 : Vec Ideal S512x2048 .bf16) (x1 : Vec Ideal S1024x2048 .bf16) (r : Fin 512) (n : Fin 1024) :
    k0_pay1 (F := Ideal) x0 x1 (ix2 r n) = mmT x0 x1 r n := by
  unfold k0_pay1 mmT
  rw [shapeCast_self, shapeCast_self]
  exact mm_proj_apply x0 x1 r n

/-- The output projection's block: the same product, kept wide. -/
theorem out_body (x0 : Vec Ideal S512x2048 .bf16) (x1 : Vec Ideal S1024x2048 .bf16) (r : Fin 512) (n : Fin 1024) :
    k2_pay1 (F := Ideal) x0 x1 (ix2 r n) = mmT x0 x1 r n := by
  unfold k2_pay1 mmT
  rw [shapeCast_self, shapeCast_self]
  exact mm_proj_apply x0 x1 r n

/-! ## The two products of the attention block -/

theorem mm_qk_lhs_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem mm_qk_lhs_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
theorem mm_qk_rhs_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem mm_qk_rhs_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q
/-- Queries times transposed keys into zero, at `(r, s)`: the sum over the lane. -/
theorem mm_qk_apply (a : FVec Ideal S1024x128 .bf16) (b : FVec Ideal S2048x128 .bf16) (r : Fin 1024) (n : Fin 2048) :
    matmul dot_S1024x128_S2048x128_S1024x2048_1_1_0_0_n_n none a b (constant (F := Ideal) S1024x2048 .f32 0x00000000#32) (ix2 r n)
      = ∑ k : Fin 128, a (ix2 r k) * b (ix2 n k) := by
  simp only [matmul]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 r n) ((contrEquiv1 dot_S1024x128_S2048x128_S1024x2048_1_1_0_0_n_n 128 rfl rfl).symm k) = ix2 r k :=
    funext fun c => Fin.ext (by
      match c with
      | ⟨0, _⟩ => exact mm_qk_lhs_0 _ _
      | ⟨1, _⟩ => exact (mm_qk_lhs_1 _ _).trans hk)
  have er : dot_S1024x128_S2048x128_S1024x2048_1_1_0_0_n_n.rhsIdx (ix2 r n) ((contrEquiv1 dot_S1024x128_S2048x128_S1024x2048_1_1_0_0_n_n 128 rfl rfl).symm k) = ix2 n k :=
    funext fun c => Fin.ext (by
      match c with
      | ⟨0, _⟩ => exact mm_qk_rhs_0 _ _
      | ⟨1, _⟩ => exact (mm_qk_rhs_1 _ _).trans hk)
  rw [el, er]

theorem mm_pv_lhs_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem mm_pv_lhs_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem mm_pv_rhs_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem mm_pv_rhs_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl
/-- Weights times values into zero, at `(r, d)`: the sum over the key position. -/
theorem mm_pv_apply (a : FVec Ideal S1024x2048 .bf16) (b : FVec Ideal S2048x128 .bf16) (r : Fin 1024) (n : Fin 128) :
    matmul dot_S1024x2048_S2048x128_S1024x128_1_0_0_1_n_n none a b (constant (F := Ideal) S1024x128 .f32 0x00000000#32) (ix2 r n)
      = ∑ k : Fin 2048, a (ix2 r k) * b (ix2 k n) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r n) ((contrEquiv1 dot_S1024x2048_S2048x128_S1024x128_1_0_0_1_n_n 2048 rfl rfl).symm k) = ix2 r k :=
    funext fun c => Fin.ext (by
      match c with
      | ⟨0, _⟩ => exact mm_pv_lhs_0 _ _
      | ⟨1, _⟩ => exact (mm_pv_lhs_1 _ _).trans hk)
  have er : dot_S1024x2048_S2048x128_S1024x128_1_0_0_1_n_n.rhsIdx (ix2 r n) ((contrEquiv1 dot_S1024x2048_S2048x128_S1024x128_1_0_0_1_n_n 2048 rfl rfl).symm k) = ix2 k n :=
    funext fun c => Fin.ext (by
      match c with
      | ⟨0, _⟩ => exact (mm_pv_rhs_0 _ _).trans hk
      | ⟨1, _⟩ => exact mm_pv_rhs_1 _ _)
  rw [el, er]

/-! ## A row's maximum and sum -/

/-- The index a reduction over the last axis of a `[1024, 2048]` array inserts over row `r` at coordinate `s` is `(r, s)`. -/
theorem lift_row (h : S1024x2048.Reduces [1] S1024) (r : Fin 1024) (s : Fin 2048) : h.lift (ix1 r) s = ix2 r s :=
  funext fun c => Fin.ext (by match c with | ⟨0, _⟩ => rfl | ⟨1, _⟩ => rfl)

/-- The maximum over the last axis, from `-∞`, at row `r`: the row's maximum. -/
theorem rowMax_apply (v : FVec Ideal S1024x2048 .f32) (h : S1024x2048.Reduces [1] S1024) (hφ : FKind.Formats .f32)
    (hacc : (0xFF800000#32 : BitVec FTy.f32.bits) = FKind.maximumf.neutral .f32 hφ) (r : Fin 1024) :
    multiReduction (F := Ideal) .maximumf [1] S1024 v 0xFF800000#32 h hφ hacc (ix1 r)
      = rowMax (fun s : Fin 2048 => v (ix2 r s)) := by
  refine (Ideal.multiReduction_maximumf_single v 0xFF800000#32 h hφ hacc (ix1 r)).trans ?_
  have e : (v ∘ h.lift (ix1 r)) = fun s : Fin 2048 => v (ix2 r s) := funext fun s => congrArg v (lift_row h r s)
  exact congrArg (fun f : Fin 2048 → EReal => (Finset.univ : Finset (Fin 2048)).fold max negInf f) e

/-- The sum over the last axis, from zero, at row `r`: the row's sum. -/
theorem rowSum_apply (v : FVec Ideal S1024x2048 .f32) (h : S1024x2048.Reduces [1] S1024) (hφ : FKind.Formats .f32)
    (hacc : (0x00000000#32 : BitVec FTy.f32.bits) = FKind.add.neutral .f32 hφ) (r : Fin 1024) :
    multiReduction (F := Ideal) .add [1] S1024 v 0x00000000#32 h hφ hacc (ix1 r) = ∑ s : Fin 2048, v (ix2 r s) := by
  refine (Ideal.multiReduction_add_single v 0x00000000#32 h hφ hacc (ix1 r)).trans ?_
  exact Finset.sum_congr rfl fun s _ => congrArg v (lift_row h r s)

/-! ## A vector spread as a column over its rows -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector cast to a column and broadcast along the rows reads, at `(p, c)`, the vector at `p`. -/
theorem column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Column

/-! ## The named scale -/

/-- The constant the kernel multiplies the scores by is `scale`. -/
theorem inv_sqrt_hd_eq : Named.named (F := Ideal) Cert.KernelIdeal.κ "inv_sqrt_hd" (φ := .f32) 0x3DB504F3#32 = scale := by
  unfold scale
  exact IdealRules.named_const.ideal_named_scalar _ _ _ _ rfl

/-! ## The attention block, step by step -/

/-- The scaled score block at `(r, s)`: query row `r` against key `s`, times `scale`. -/
theorem scores_apply (x0 : FVec Ideal S1x1024x128 .bf16) (x1 : FVec Ideal S1x2048x128 .bf16)
    (hq : S1x1024x128.ShapeCasts S1024x128) (hk : S1x2048x128.ShapeCasts S2048x128) (r : Fin 1024) (s : Fin 2048) :
    mulf (matmul dot_S1024x128_S2048x128_S1024x2048_1_1_0_0_n_n none (shapeCast S1024x128 x0 hq) (shapeCast S2048x128 x1 hk)
        (constant (F := Ideal) S1024x2048 .f32 0x00000000#32))
      (broadcast S1024x2048 (Named.named (F := Ideal) Cert.KernelIdeal.κ "inv_sqrt_hd" (φ := .f32) 0x3DB504F3#32)) (ix2 r s)
      = scores (fun d' : Fin 128 => x0 (ix3 (0 : Fin 1) r d')) (fun (s' : Fin 2048) (d' : Fin 128) => x1 (ix3 (0 : Fin 1) s' d')) s := by
  refine (mulf_apply _ _ _).trans ?_
  refine (congrArg₂ (· * ·) (mm_qk_apply _ _ r s) inv_sqrt_hd_eq).trans ?_
  unfold scores
  refine congrArg (· * scale) (Finset.sum_congr rfl fun d' _ => ?_)
  exact congrArg₂ (· * ·) (shapeCast_1ab_ab_apply x0 hq r d') (shapeCast_1ab_ab_apply x1 hk s d')

/-- A block shifted by its rows' maxima and exponentiated, at `(r, s)`. -/
theorem expBlock_apply (v : FVec Ideal S1024x2048 .f32) (hr : S1024x2048.Reduces [1] S1024) (hφ : FKind.Formats .f32)
    (hmax : (0xFF800000#32 : BitVec FTy.f32.bits) = FKind.maximumf.neutral .f32 hφ)
    (h1 : S1024.ShapeCasts S1024x1) (h2 : S1024x1.Broadcasts S1024x2048) (r : Fin 1024) (s : Fin 2048) :
    exp (subf v (broadcastTo S1024x2048 (shapeCast S1024x1
        (multiReduction (F := Ideal) .maximumf [1] S1024 v 0xFF800000#32 hr hφ hmax) h1) h2)) (ix2 r s)
      = expRow (fun s' : Fin 2048 => v (ix2 r s')) s := by
  unfold expRow
  show Ideal.exp (v (ix2 r s) - _) = _
  refine congrArg (fun m => Ideal.exp (v (ix2 r s) - m)) ?_
  exact (column_apply _ h1 h2 r s).trans (rowMax_apply v hr hφ hmax r)

/-- A block divided by its rows' sums, at `(r, s)`. -/
theorem divBlock_apply (E : FVec Ideal S1024x2048 .f32) (hr : S1024x2048.Reduces [1] S1024) (hφ : FKind.Formats .f32)
    (hadd : (0x00000000#32 : BitVec FTy.f32.bits) = FKind.add.neutral .f32 hφ)
    (h1 : S1024.ShapeCasts S1024x1) (h2 : S1024x1.Broadcasts S1024x2048) (r : Fin 1024) (s : Fin 2048) :
    divf E (broadcastTo S1024x2048 (shapeCast S1024x1
        (multiReduction (F := Ideal) .add [1] S1024 E 0x00000000#32 hr hφ hadd) h1) h2) (ix2 r s)
      = Ideal.div (E (ix2 r s)) (∑ s' : Fin 2048, E (ix2 r s')) := by
  refine (divf_apply _ _ _).trans ?_
  refine congrArg (fun m => Ideal.div (E (ix2 r s)) m) ?_
  exact (column_apply _ h1 h2 r s).trans (rowSum_apply E hr hφ hadd r)

/-- The softmax block of a score block, at `(r, s)`: the softmax weights of row `r`. -/
theorem probsBlock_apply (v : FVec Ideal S1024x2048 .f32) (hr : S1024x2048.Reduces [1] S1024) (hφ : FKind.Formats .f32)
    (hmax : (0xFF800000#32 : BitVec FTy.f32.bits) = FKind.maximumf.neutral .f32 hφ)
    (hadd : (0x00000000#32 : BitVec FTy.f32.bits) = FKind.add.neutral .f32 hφ)
    (h1 : S1024.ShapeCasts S1024x1) (h2 : S1024x1.Broadcasts S1024x2048) (r : Fin 1024) (s : Fin 2048) :
    divf (exp (subf v (broadcastTo S1024x2048 (shapeCast S1024x1
          (multiReduction (F := Ideal) .maximumf [1] S1024 v 0xFF800000#32 hr hφ hmax) h1) h2)))
      (broadcastTo S1024x2048 (shapeCast S1024x1
        (multiReduction (F := Ideal) .add [1] S1024
          (exp (subf v (broadcastTo S1024x2048 (shapeCast S1024x1
            (multiReduction (F := Ideal) .maximumf [1] S1024 v 0xFF800000#32 hr hφ hmax) h1) h2)))
          0x00000000#32 hr hφ hadd) h1) h2) (ix2 r s)
      = probs (fun s' : Fin 2048 => v (ix2 r s')) s := by
  refine (divBlock_apply _ hr hφ hadd h1 h2 r s).trans ?_
  unfold probs
  refine congrArg₂ Ideal.div (expBlock_apply v hr hφ hmax h1 h2 r s) ?_
  exact Finset.sum_congr rfl fun s' _ => expBlock_apply v hr hφ hmax h1 h2 r s'

/-- The attention block: query row `r` of the head attends to the head's keys and values. -/
theorem attn_body (x0 : Vec Ideal S1x1024x128 .bf16) (x1 x2 : Vec Ideal S1x2048x128 .bf16) (r : Fin 1024) (d : Fin 128) :
    k1_pay1 (F := Ideal) x0 x1 x2 (ix3 (0 : Fin 1) r d)
      = attend (fun d' : Fin 128 => x0 (ix3 (0 : Fin 1) r d')) (fun (s : Fin 2048) (d' : Fin 128) => x1 (ix3 (0 : Fin 1) s d'))
          (fun (s : Fin 2048) (d' : Fin 128) => x2 (ix3 (0 : Fin 1) s d')) d := by
  unfold k1_pay1
  refine (shapeCast_ab_1ab_apply _ _ (0 : Fin 1) r d).trans ?_
  refine (truncf_apply (φ := .f32) (ψ := .bf16) _ _ _).trans ?_
  refine (mm_pv_apply _ _ r d).trans ?_
  unfold attend
  refine Finset.sum_congr rfl fun s _ => ?_
  refine congrArg₂ (· * ·) ?_ (shapeCast_1ab_ab_apply x2 _ s d)
  refine (truncf_apply (φ := .f32) (ψ := .bf16) _ _ _).trans ?_
  refine (probsBlock_apply _ _ _ _ _ _ _ r s).trans ?_
  exact congrArg (fun S => probs S s) (funext fun s' => scores_apply x0 x1 _ _ r s')

end Cert.KernelIdeal.Bodies

end
-- ==== Proof.ProjRegion.lean ====
/-
  What the projection region leaves in its output array, for ANY contents `V` of the buffers at its entry.

  The region's grid is 6 × 8 points `(j, i)`. At a point the body loads rows `512 i … 512 i + 511` of the
  `4096 × 2048` left array (all 2048 columns) and rows `1024 j … 1024 j + 1023` of the `6144 × 2048` right array,
  and stores the `512 × 1024` block of products contracted over the 2048 columns; the block is written back
  to rows `512 i …`, columns `1024 j …` of the `4096 × 6144` output. Entry `(r, n)` of that block depends only on
  row `512 i + r` of the left array and row `1024 j + n` of the right one, so every block is the restriction of
  one whole-array function, `A · Bᵀ`; the 48 blocks tile the output, so the output ends holding `A · Bᵀ`.
-/
import proofs.«125070_j85736137162885_2_alg».proof.Proof.Gen.KernelIdeal.Frame
import proofs.«125070_j85736137162885_2_alg».proof.Proof.Bodies
import Idealize.ShloMosaic.Lib.Pipeline.Value
import Idealize.ShloMosaic.Lib.ValueIdx

set_option maxRecDepth 16384

noncomputable section

namespace Cert.KernelIdeal.ProjRegion

open Cert.KernelIdeal Cert.KernelIdeal.Gen Cert.SelfAttn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole output: entry `(r, e)` is row `r` of `A` against row `e` of `B`. -/
def G (A : S4096x2048.Idx → EReal) (B : S6144x2048.Idx → EReal) : S4096x6144.Idx → EReal :=
  fun j => mmT A B (j 0) (j 1)

/-- The printed index maps over the grid: the left block's row index is the output's row index, the right
    block's row index is the output's column index, both read all columns, and the output's indices stay in range. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 5 :=
  (by decide +kernel : ∀ t : Fin grid0.N, _)

/-- Every block of the output is some point's. -/
theorem idx_onto : ∀ (q0 : Fin 8) (q1 : Fin 6), ∃ t : Fin cfg0.N, win0_2.index t = ![q0.val, q1.val] :=
  (by decide +kernel : ∀ (q0 : Fin 8) (q1 : Fin 6), ∃ t : Fin grid0.N, win0_2.index t = ![q0.val, q1.val])

/-- What point `t` writes back is block `t` of `A · Bᵀ`. -/
theorem flushed_eq (c : Dev nD) (t : Fin cfg0.N) :
    (dat0 V c).flushed 2 t = ((cfg0.win 2).blk t).view.read (Elt Ideal) (G (V c main_v1) (V c main_v2)) := by
  show (cfg0.win 2).cut (grid0.coords t) ((dat0 V c).after 2 t) = _
  rw [after0_2]
  unfold out0_2
  rw [View.canon_unit_zero hz]
  simp only [View.ld_unit_zero (S := S512x2048) hz, View.ld_unit_zero (S := S1024x2048) hz]
  obtain ⟨e0, e1, e2, e3, e4, e5⟩ := idx_facts t
  funext j
  obtain ⟨r, n, rfl⟩ : ∃ (r : Fin 512) (n : Fin 1024), j = ix2 r n := ⟨j 0, j 1, eq_ix2 j⟩
  show k0_pay1 (iblk0 V c 0 t) (iblk0 V c 1 t) (ix2 r n) = G (V c main_v1) (V c main_v2) (((cfg0.win 2).blk t).view.emb (ix2 r n))
  refine (Bodies.proj_body (iblk0 V c 0 t) (iblk0 V c 1 t) r n).trans ?_
  unfold mmT G
  refine Finset.sum_congr rfl fun k _ => ?_
  have hA : iblk0 V c 0 t (ix2 r k) = V c main_v1 (ix2 ((((cfg0.win 2).blk t).view.emb (ix2 r n)) 0) k) := by
    show V c main_v1 (((cfg0.win 0).blk t).view.emb (ix2 r k)) = _
    refine congrArg (V c main_v1) ?_
    funext a; apply Fin.ext
    match a with
    | ⟨0, _⟩ => show win0_0.index t (0 : Fin 2) * 512 + 1 * r.val = win0_2.index t (0 : Fin 2) * 512 + 1 * r.val; omega
    | ⟨1, _⟩ => show win0_0.index t (1 : Fin 2) * 2048 + 1 * k.val = k.val; omega
  have hB : iblk0 V c 1 t (ix2 n k) = V c main_v2 (ix2 ((((cfg0.win 2).blk t).view.emb (ix2 r n)) 1) k) := by
    show V c main_v2 (((cfg0.win 1).blk t).view.emb (ix2 n k)) = _
    refine congrArg (V c main_v2) ?_
    funext a; apply Fin.ext
    match a with
    | ⟨0, _⟩ => show win0_1.index t (0 : Fin 2) * 1024 + 1 * n.val = win0_2.index t (1 : Fin 2) * 1024 + 1 * n.val; omega
    | ⟨1, _⟩ => show win0_1.index t (1 : Fin 2) * 2048 + 1 * k.val = k.val; omega
  rw [hA, hB]

/-- An index of the output is in point `t`'s block iff each coordinate is in the block's range on its axis. -/
theorem mem_blk (t : Fin cfg0.N) (i : S4096x6144.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v4).slice (win0_2.rect t)).set ↔ _
  rw [View.set_slice_whole, Rect.mem_set_unit]
  exact Iff.rfl

/-- The 48 blocks cover the output: entry `(r, e)` is in the block of the point with indices `(r / 512, e / 1024)`. -/
theorem cover (i : S4096x6144.Idx) : ∃ t : Fin cfg0.N, (cfg0.win 2).flush t = true ∧ i ∈ ((cfg0.win 2).blk t).view.set := by
  have hi0 : (i 0).val < 4096 := (i 0).isLt
  have hi1 : (i 1).val < 6144 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The output array after the region: `A · Bᵀ` of the two input arrays as the region found them. -/
theorem final (c : Dev nD) : (dat0 V c).arrAt 2 cfg0.N = G (V c main_v1) (V c main_v2) :=
  (dat0 V c).arrAt_eq_of_cover 2 (G (V c main_v1) (V c main_v2)) (fun t _ => flushed_eq V c t) (cover)

end Cert.KernelIdeal.ProjRegion

end
-- ==== Proof.HeadsRegion.lean ====
/-
  What the attention region leaves in its output array, for ANY contents `V` of the buffers at its entry.

  The grid is 2 × 16 × 2 points `(b, h, half)`. At a point the body loads, of the three `[2, 2048, 2048]` input
  arrays, the query rows `1024 half … 1024 half + 1023` of batch `b` at the 128 lanes `128 h … 128 h + 127` of head
  `h`, and ALL 2048 key rows and value rows of batch `b` at the same lanes; it stores, for each of its 1024 query
  rows, the attended value at each of the 128 lanes, and the block is written back to the output at the place
  the query block came from. Entry `(r, d)` of the block depends only on query row `1024 half + r` and on the keys
  and values of batch `b`, all at head `h`'s lanes — exactly `heads Q K V` at `(b, 1024 half + r, 128 h + d)`, whose
  head is `h` and whose lane is `d`. The 64 blocks tile the output, so the output ends holding `heads Q K V`.
-/
import proofs.«125070_j85736137162885_2_alg».proof.Proof.Gen.KernelIdeal.Frame
import proofs.«125070_j85736137162885_2_alg».proof.Proof.Bodies
import Idealize.ShloMosaic.Lib.Pipeline.Value
import Idealize.ShloMosaic.Lib.ValueIdx

set_option maxRecDepth 16384

noncomputable section

namespace Cert.KernelIdeal.HeadsRegion

open Cert.KernelIdeal Cert.KernelIdeal.Gen Cert.SelfAttn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0, 0] : Fin 3 → Nat) = fun _ => 0 := funext fun a => by fin_cases a <;> rfl

/-- The whole output: multi-head attention of the three input arrays. -/
def G (Q K W : S2x2048x2048.Idx → EReal) : S2x2048x2048.Idx → EReal :=
  fun i => heads Q K W (i 0) (i 1) (i 2)

/-- The printed index maps over the grid: the query block sits where the output block sits; the key and value
    blocks share its batch and head and start at row 0; the output's indices stay in range. -/
theorem idx_facts : ∀ t : Fin cfg1.N, win1_0.index t (0 : Fin 3) = win1_3.index t (0 : Fin 3)
    ∧ win1_0.index t (1 : Fin 3) = win1_3.index t (1 : Fin 3)
    ∧ win1_0.index t (2 : Fin 3) = win1_3.index t (2 : Fin 3)
    ∧ win1_1.index t (0 : Fin 3) = win1_3.index t (0 : Fin 3)
    ∧ win1_1.index t (1 : Fin 3) = 0
    ∧ win1_1.index t (2 : Fin 3) = win1_3.index t (2 : Fin 3)
    ∧ win1_2.index t (0 : Fin 3) = win1_3.index t (0 : Fin 3)
    ∧ win1_2.index t (1 : Fin 3) = 0
    ∧ win1_2.index t (2 : Fin 3) = win1_3.index t (2 : Fin 3)
    ∧ win1_3.index t (0 : Fin 3) ≤ 1 ∧ win1_3.index t (1 : Fin 3) ≤ 1 ∧ win1_3.index t (2 : Fin 3) ≤ 15 :=
  (by decide +kernel : ∀ t : Fin grid1.N, _)

/-- Every block of the output is some point's. -/
theorem idx_onto : ∀ (q0 : Fin 2) (q1 : Fin 2) (q2 : Fin 16), ∃ t : Fin cfg1.N, win1_3.index t = ![q0.val, q1.val, q2.val] :=
  (by decide +kernel : ∀ (q0 : Fin 2) (q1 : Fin 2) (q2 : Fin 16), ∃ t : Fin grid1.N, win1_3.index t = ![q0.val, q1.val, q2.val])

/-- What point `t` writes back is block `t` of `heads Q K V`. -/
theorem flushed_eq (c : Dev nD) (t : Fin cfg1.N) :
    (dat1 V c).flushed 3 t = ((cfg1.win 3).blk t).view.read (Elt Ideal) (G (V c main_v6) (V c main_v8) (V c main_v10)) := by
  show (cfg1.win 3).cut (grid1.coords t) ((dat1 V c).after 3 t) = _
  rw [after1_3]
  unfold out1_3
  rw [View.canon_unit_zero hz]
  simp only [View.ld_unit_zero (S := S1x1024x128) hz, View.ld_unit_zero (S := S1x2048x128) hz]
  obtain ⟨e0, e1, e2, f0, f1, f2, g0, g1, g2, b0, b1, b2⟩ := idx_facts t
  funext j
  obtain ⟨u, r, d, rfl⟩ : ∃ (u : Fin 1) (r : Fin 1024) (d : Fin 128), j = ix3 u r d := ⟨j 0, j 1, j 2, eq_ix3 j⟩
  obtain rfl : u = 0 := Subsingleton.elim _ _
  show k1_pay1 (iblk1 V c 0 t) (iblk1 V c 1 t) (iblk1 V c 2 t) (ix3 (0 : Fin 1) r d)
    = G (V c main_v6) (V c main_v8) (V c main_v10) (((cfg1.win 3).blk t).view.emb (ix3 (0 : Fin 1) r d))
  refine (Bodies.attn_body (iblk1 V c 0 t) (iblk1 V c 1 t) (iblk1 V c 2 t) r d).trans ?_
  unfold G heads
  have hq : (fun d' : Fin 128 => iblk1 V c 0 t (ix3 (0 : Fin 1) r d'))
      = fun d' : Fin 128 => V c main_v6 (ix3 ((((cfg1.win 3).blk t).view.emb (ix3 (0 : Fin 1) r d)) 0) ((((cfg1.win 3).blk t).view.emb (ix3 (0 : Fin 1) r d)) 1)
          (hd ((((cfg1.win 3).blk t).view.emb (ix3 (0 : Fin 1) r d)) 2) d')) := funext fun d' => by
    show V c main_v6 (((cfg1.win 0).blk t).view.emb (ix3 (0 : Fin 1) r d')) = _
    refine congrArg (V c main_v6) ?_
    funext a; apply Fin.ext
    have hd' : d'.val < 128 := d'.isLt
    have hdd : d.val < 128 := d.isLt
    match a with
    | ⟨0, _⟩ => show win1_0.index t (0 : Fin 3) * 1 + 1 * 0 = win1_3.index t (0 : Fin 3) * 1 + 1 * 0; omega
    | ⟨1, _⟩ => show win1_0.index t (1 : Fin 3) * 1024 + 1 * r.val = win1_3.index t (1 : Fin 3) * 1024 + 1 * r.val; omega
    | ⟨2, _⟩ => show win1_0.index t (2 : Fin 3) * 128 + 1 * d'.val = (win1_3.index t (2 : Fin 3) * 128 + 1 * d.val) / 128 * 128 + d'.val; omega
  have hk : (fun (s : Fin 2048) (d' : Fin 128) => iblk1 V c 1 t (ix3 (0 : Fin 1) s d'))
      = fun (s : Fin 2048) (d' : Fin 128) => V c main_v8 (ix3 ((((cfg1.win 3).blk t).view.emb (ix3 (0 : Fin 1) r d)) 0) s
          (hd ((((cfg1.win 3).blk t).view.emb (ix3 (0 : Fin 1) r d)) 2) d')) := funext fun s => funext fun d' => by
    show V c main_v8 (((cfg1.win 1).blk t).view.emb (ix3 (0 : Fin 1) s d')) = _
    refine congrArg (V c main_v8) ?_
    funext a; apply Fin.ext
    have hd' : d'.val < 128 := d'.isLt
    have hdd : d.val < 128 := d.isLt
    match a with
    | ⟨0, _⟩ => show win1_1.index t (0 : Fin 3) * 1 + 1 * 0 = win1_3.index t (0 : Fin 3) * 1 + 1 * 0; omega
    | ⟨1, _⟩ => show win1_1.index t (1 : Fin 3) * 2048 + 1 * s.val = s.val; omega
    | ⟨2, _⟩ => show win1_1.index t (2 : Fin 3) * 128 + 1 * d'.val = (win1_3.index t (2 : Fin 3) * 128 + 1 * d.val) / 128 * 128 + d'.val; omega
  have hv : (fun (s : Fin 2048) (d' : Fin 128) => iblk1 V c 2 t (ix3 (0 : Fin 1) s d'))
      = fun (s : Fin 2048) (d' : Fin 128) => V c main_v10 (ix3 ((((cfg1.win 3).blk t).view.emb (ix3 (0 : Fin 1) r d)) 0) s
          (hd ((((cfg1.win 3).blk t).view.emb (ix3 (0 : Fin 1) r d)) 2) d')) := funext fun s => funext fun d' => by
    show V c main_v10 (((cfg1.win 2).blk t).view.emb (ix3 (0 : Fin 1) s d')) = _
    refine congrArg (V c main_v10) ?_
    funext a; apply Fin.ext
    have hd' : d'.val < 128 := d'.isLt
    have hdd : d.val < 128 := d.isLt
    match a with
    | ⟨0, _⟩ => show win1_2.index t (0 : Fin 3) * 1 + 1 * 0 = win1_3.index t (0 : Fin 3) * 1 + 1 * 0; omega
    | ⟨1, _⟩ => show win1_2.index t (1 : Fin 3) * 2048 + 1 * s.val = s.val; omega
    | ⟨2, _⟩ => show win1_2.index t (2 : Fin 3) * 128 + 1 * d'.val = (win1_3.index t (2 : Fin 3) * 128 + 1 * d.val) / 128 * 128 + d'.val; omega
  have hl : lane ((((cfg1.win 3).blk t).view.emb (ix3 (0 : Fin 1) r d)) 2) = d := by
    apply Fin.ext
    have hdd : d.val < 128 := d.isLt
    show (win1_3.index t (2 : Fin 3) * 128 + 1 * d.val) % 128 = d.val
    omega
  rw [hq, hk, hv, hl]

/-- An index of the output is in point `t`'s block iff each coordinate is in the block's range on its axis. -/
theorem mem_blk (t : Fin cfg1.N) (i : S2x2048x2048.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v11).slice (win1_3.rect t)).set ↔ _
  rw [View.set_slice_whole, Rect.mem_set_unit]
  exact Iff.rfl

/-- The 64 blocks cover the output: entry `(b, t, c)` is in the block of the point with indices `(b, t / 1024, c / 128)`. -/
theorem cover (i : S2x2048x2048.Idx) : ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 2048 := (i 2).isLt
  obtain ⟨t, ht⟩ := idx_onto ⟨(i 0).val, by omega⟩ ⟨(i 1).val / 1024, by omega⟩ ⟨(i 2).val / 128, by omega⟩
  have q0 : win1_3.index t (0 : Fin 3) = (i 0).val := congrFun ht 0
  have q1 : win1_3.index t (1 : Fin 3) = (i 1).val / 1024 := congrFun ht 1
  have q2 : win1_3.index t (2 : Fin 3) = (i 2).val / 128 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

/-- The output array after the region: multi-head attention of the three input arrays as the region found them. -/
theorem final (c : Dev nD) : (dat1 V c).arrAt 3 cfg1.N = G (V c main_v6) (V c main_v8) (V c main_v10) :=
  (dat1 V c).arrAt_eq_of_cover 3 (G (V c main_v6) (V c main_v8) (V c main_v10)) (fun t _ => flushed_eq V c t) (cover)

end Cert.KernelIdeal.HeadsRegion

end
-- ==== Proof.OutRegion.lean ====
/-
  What the output projection's region leaves in its output array, for ANY contents `V` of the buffers at its entry.

  The grid is 2 × 8 points `(j, i)`. At a point the body loads rows `512 i … 512 i + 511` of the `4096 × 2048`
  left array (all 2048 columns) and rows `1024 j … 1024 j + 1023` of the `2048 × 2048` weight, and stores the
  `512 × 1024` block of products contracted over the 2048 columns, written back to rows `512 i …`, columns
  `1024 j …` of the `4096 × 2048` output. Every block is the restriction of `A · Bᵀ`, and the 16 blocks tile the
  output, so the output ends holding `A · Bᵀ`.
-/
import proofs.«125070_j85736137162885_2_alg».proof.Proof.Gen.KernelIdeal.Frame
import proofs.«125070_j85736137162885_2_alg».proof.Proof.Bodies
import Idealize.ShloMosaic.Lib.Pipeline.Value
import Idealize.ShloMosaic.Lib.ValueIdx

set_option maxRecDepth 16384

noncomputable section

namespace Cert.KernelIdeal.OutRegion

open Cert.KernelIdeal Cert.KernelIdeal.Gen Cert.SelfAttn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole output: entry `(r, e)` is row `r` of `A` against row `e` of `B`. -/
def G (A : S4096x2048.Idx → EReal) (B : S2048x2048.Idx → EReal) : S4096x2048.Idx → EReal :=
  fun j => mmT A B (j 0) (j 1)

/-- The printed index maps over the grid: the left block's row index is the output's row index, the right
    block's row index is the output's column index, both read all columns, and the output's indices stay in range. -/
theorem idx_facts : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 7 ∧ win2_2.index t (1 : Fin 2) ≤ 1 :=
  (by decide +kernel : ∀ t : Fin grid2.N, _)

/-- Every block of the output is some point's. -/
theorem idx_onto : ∀ (q0 : Fin 8) (q1 : Fin 2), ∃ t : Fin cfg2.N, win2_2.index t = ![q0.val, q1.val] :=
  (by decide +kernel : ∀ (q0 : Fin 8) (q1 : Fin 2), ∃ t : Fin grid2.N, win2_2.index t = ![q0.val, q1.val])

/-- What point `t` writes back is block `t` of `A · Bᵀ`. -/
theorem flushed_eq (c : Dev nD) (t : Fin cfg2.N) :
    (dat2 V c).flushed 2 t = ((cfg2.win 2).blk t).view.read (Elt Ideal) (G (V c main_v12) (V c main_v3)) := by
  show (cfg2.win 2).cut (grid2.coords t) ((dat2 V c).after 2 t) = _
  rw [after2_2]
  unfold out2_2
  rw [View.canon_unit_zero hz]
  simp only [View.ld_unit_zero (S := S512x2048) hz, View.ld_unit_zero (S := S1024x2048) hz]
  obtain ⟨e0, e1, e2, e3, e4, e5⟩ := idx_facts t
  funext j
  obtain ⟨r, n, rfl⟩ : ∃ (r : Fin 512) (n : Fin 1024), j = ix2 r n := ⟨j 0, j 1, eq_ix2 j⟩
  show k2_pay1 (iblk2 V c 0 t) (iblk2 V c 1 t) (ix2 r n) = G (V c main_v12) (V c main_v3) (((cfg2.win 2).blk t).view.emb (ix2 r n))
  refine (Bodies.out_body (iblk2 V c 0 t) (iblk2 V c 1 t) r n).trans ?_
  unfold mmT G
  refine Finset.sum_congr rfl fun k _ => ?_
  have hA : iblk2 V c 0 t (ix2 r k) = V c main_v12 (ix2 ((((cfg2.win 2).blk t).view.emb (ix2 r n)) 0) k) := by
    show V c main_v12 (((cfg2.win 0).blk t).view.emb (ix2 r k)) = _
    refine congrArg (V c main_v12) ?_
    funext a; apply Fin.ext
    match a with
    | ⟨0, _⟩ => show win2_0.index t (0 : Fin 2) * 512 + 1 * r.val = win2_2.index t (0 : Fin 2) * 512 + 1 * r.val; omega
    | ⟨1, _⟩ => show win2_0.index t (1 : Fin 2) * 2048 + 1 * k.val = k.val; omega
  have hB : iblk2 V c 1 t (ix2 n k) = V c main_v3 (ix2 ((((cfg2.win 2).blk t).view.emb (ix2 r n)) 1) k) := by
    show V c main_v3 (((cfg2.win 1).blk t).view.emb (ix2 n k)) = _
    refine congrArg (V c main_v3) ?_
    funext a; apply Fin.ext
    match a with
    | ⟨0, _⟩ => show win2_1.index t (0 : Fin 2) * 1024 + 1 * n.val = win2_2.index t (1 : Fin 2) * 1024 + 1 * n.val; omega
    | ⟨1, _⟩ => show win2_1.index t (1 : Fin 2) * 2048 + 1 * k.val = k.val; omega
  rw [hA, hB]

/-- An index of the output is in point `t`'s block iff each coordinate is in the block's range on its axis. -/
theorem mem_blk (t : Fin cfg2.N) (i : S4096x2048.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v13).slice (win2_2.rect t)).set ↔ _
  rw [View.set_slice_whole, Rect.mem_set_unit]
  exact Iff.rfl

/-- The 16 blocks cover the output: entry `(r, e)` is in the block of the point with indices `(r / 512, e / 1024)`. -/
theorem cover (i : S4096x2048.Idx) : ∃ t : Fin cfg2.N, (cfg2.win 2).flush t = true ∧ i ∈ ((cfg2.win 2).blk t).view.set := by
  have hi0 : (i 0).val < 4096 := (i 0).isLt
  have hi1 : (i 1).val < 2048 := (i 1).isLt
  obtain ⟨t, ht⟩ := idx_onto ⟨(i 0).val / 512, by omega⟩ ⟨(i 1).val / 1024, by omega⟩
  have q0 : win2_2.index t (0 : Fin 2) = (i 0).val / 512 := congrFun ht 0
  have q1 : win2_2.index t (1 : Fin 2) = (i 1).val / 1024 := congrFun ht 1
  refine ⟨t, flush2_2 t, ?_⟩
  rw [mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The output array after the region: `A · Bᵀ` of the two input arrays as the region found them. -/
theorem final (c : Dev nD) : (dat2 V c).arrAt 2 cfg2.N = G (V c main_v12) (V c main_v3) :=
  (dat2 V c).arrAt_eq_of_cover 2 (G (V c main_v12) (V c main_v3)) (fun t _ => flushed_eq V c t) (cover)

end Cert.KernelIdeal.OutRegion

end
-- ==== Proof.RefEnds.lean ====
/-
  The two ends of the reference, read at an index.

  Its first stage is the fused projection: entry `(b, t, e)` is `∑ d, x (b, t, d) * w (e, d)`; the query, key and
  value arrays are its column bands `0…2047`, `2048…4095`, `4096…6143`. Its last stage multiplies the attended
  values by the output weight: entry `(b, t, e)` is `∑ c, y (b, t, c) * wo (e, c)`.
-/
import proofs.«125070_j85736137162885_2_alg».proof.Proof.Gen.ReferenceIdeal.Read
import Idealize.ShloMosaic.Lib.ValueIdx

noncomputable section

namespace Cert.ReferenceIdeal.Stages

open Cert.ReferenceIdeal Cert.ReferenceIdeal.Read Idealize.ShloMosaic Idealize.ShloMosaic.ValueIdx

variable (x0 : (⟨S2x2048x2048, .f32⟩ : BufTy).Contents (Elt Ideal)) (x1 : (⟨S6144x2048, .f32⟩ : BufTy).Contents (Elt Ideal)) (x2 : (⟨S2048x2048, .f32⟩ : BufTy).Contents (Elt Ideal))

/-- The fused projection at `(b, t, e)`. -/
theorem proj_apply (b : Fin 2) (t : Fin 2048) (e : Fin 6144) :
    val_main_v0 (F := Ideal) x0 x1 (ix3 b t e) = ∑ d : Fin 2048, x0 (ix3 b t d) * x1 (ix2 e d) := by
  rw [val_main_v0_apply]
  refine Finset.sum_congr rfl fun d _ => ?_
  have el : lidx_main_v0 (ix3 b t e) d = ix3 b t d := funext fun a => Fin.ext (by
    match a with
    | ⟨0, _⟩ => rfl
    | ⟨1, _⟩ => rfl
    | ⟨2, _⟩ => rfl)
  have er : ridx_main_v0 (ix3 b t e) d = ix2 e d := funext fun a => Fin.ext (by
    match a with
    | ⟨0, _⟩ => rfl
    | ⟨1, _⟩ => rfl)
  rw [el, er]

/-- The query band. -/
theorem slice_q (b : Fin 2) (t c : Fin 2048) :
    val_main_v1 (F := Ideal) x0 x1 (ix3 b t c) = val_main_v0 (F := Ideal) x0 x1 (ix3 b t ⟨c.val, by have := c.isLt; omega⟩) := by
  rw [val_main_v1_apply]
  refine congrArg _ (funext fun a => Fin.ext ?_)
  match a with
  | ⟨0, _⟩ => rfl
  | ⟨1, _⟩ => rfl
  | ⟨2, _⟩ => rfl

/-- The key band. -/
theorem slice_k (b : Fin 2) (t c : Fin 2048) :
    val_main_v2 (F := Ideal) x0 x1 (ix3 b t c) = val_main_v0 (F := Ideal) x0 x1 (ix3 b t ⟨2048 + c.val, by have := c.isLt; omega⟩) := by
  rw [val_main_v2_apply]
  refine congrArg _ (funext fun a => Fin.ext ?_)
  match a with
  | ⟨0, _⟩ => rfl
  | ⟨1, _⟩ => rfl
  | ⟨2, _⟩ => rfl

/-- The value band. -/
theorem slice_v (b : Fin 2) (t c : Fin 2048) :
    val_main_v3 (F := Ideal) x0 x1 (ix3 b t c) = val_main_v0 (F := Ideal) x0 x1 (ix3 b t ⟨4096 + c.val, by have := c.isLt; omega⟩) := by
  rw [val_main_v3_apply]
  refine congrArg _ (funext fun a => Fin.ext ?_)
  match a with
  | ⟨0, _⟩ => rfl
  | ⟨1, _⟩ => rfl
  | ⟨2, _⟩ => rfl

/-- The output product at `(b, t, e)`. -/
theorem out_apply (b : Fin 2) (t e : Fin 2048) :
    val_main_v27 (F := Ideal) x0 x1 x2 (ix3 b t e) = ∑ c : Fin 2048, val_main_v26 (F := Ideal) x0 x1 (ix3 b t c) * x2 (ix2 e c) := by
  rw [val_main_v27_apply]
  refine Finset.sum_congr rfl fun c _ => ?_
  have el : lidx_main_v27 (ix3 b t e) c = ix3 b t c := funext fun a => Fin.ext (by
    match a with
    | ⟨0, _⟩ => rfl
    | ⟨1, _⟩ => rfl
    | ⟨2, _⟩ => rfl)
  have er : ridx_main_v27 (ix3 b t e) c = ix2 e c := funext fun a => Fin.ext (by
    match a with
    | ⟨0, _⟩ => rfl
    | ⟨1, _⟩ => rfl)
  rw [el, er]

end Cert.ReferenceIdeal.Stages

end
-- ==== Proof.RefStages.lean ====
/-
  The attention core of the reference program, read stage by stage at an index.

  From the fused projection's three column blocks `Q`, `K`, `V : [2, 2048, 2048]` the reference views each block
  as sixteen heads of 128 lanes (column `h * 128 + d` is lane `d` of head `h`) and computes, per head, the scores
  `(∑ d, Q (b, t, h·128+d) * K (b, s, h·128+d)) / c` with `c` the divisor `11863283 / 1048576`, the row maximum
  (a fold of `max` from `-∞`, then one more `max` with `-∞`), the exponentials of the shifted scores, their row sum
  (added to a zero), the quotient, and the weighted sum of the values; the heads' results are then laid side by
  side again as `[2, 2048, 2048]`.

  Each stage below is read at an index built from its coordinates. A reshape between `[2, 2048, 2048]` and
  `[2, 2048, 16, 128]` keeps the row-major position, so column `c` is head `c / 128`, lane `c % 128`, and head
  `h`, lane `d` is column `h * 128 + d`; the transposes swap the position and head axes. Put together, the
  context at `(b, t, c)` is the specification's `heads Q K V b t c` (`ctx_apply`).
-/
import proofs.«125070_j85736137162885_2_alg».proof.Proof.Gen.ReferenceIdeal.Read
import proofs.«125070_j85736137162885_2_alg».proof.Proof.AttnSpec

noncomputable section

namespace Cert.ReferenceIdeal.Stages

open Cert.ReferenceIdeal Cert.ReferenceIdeal.Gen Cert.ReferenceIdeal.Read Cert.SelfAttn Idealize.ShloMosaic Idealize.ShloMosaic.ValueIdx

variable (x0 : (⟨S2x2048x2048, .f32⟩ : BufTy).Contents (Elt Ideal)) (x1 : (⟨S6144x2048, .f32⟩ : BufTy).Contents (Elt Ideal))

/-! ## Heads: a block's column `h * 128 + d` is lane `d` of head `h` -/

/-- Lane `d` of head `h`, as a column. -/
def col (h : Fin 16) (d : Fin 128) : Fin 2048 := ⟨h.val * 128 + d.val, by have := h.isLt; have := d.isLt; omega⟩

/-- The reshape `[2, 2048, 2048] → [2, 2048, 16, 128]` read at `(b, t, h, d)` is the source at `(b, t, h·128+d)`. -/
theorem split_idx (b : Fin 2) (t : Fin 2048) (h : Fin 16) (d : Fin 128) :
    idx_main_v4 (ix4 b t h d) = ix3 b t (col h d) :=
  funext fun a => Fin.ext (by
    have hb := b.isLt; have ht := t.isLt; have hh := h.isLt; have hd := d.isLt
    match a with
    | ⟨0, _⟩ => show (((b.val * 2048 + t.val) * 16 + h.val) * 128 + d.val) / 4194304 = b.val; omega
    | ⟨1, _⟩ => show (((b.val * 2048 + t.val) * 16 + h.val) * 128 + d.val) / 2048 % 2048 = t.val; omega
    | ⟨2, _⟩ => show (((b.val * 2048 + t.val) * 16 + h.val) * 128 + d.val) % 2048 = h.val * 128 + d.val; omega)

/-- The transpose that brings the head axis in front of the position axis. -/
theorem swap_idx (b : Fin 2) (h : Fin 16) (t : Fin 2048) (d : Fin 128) :
    idx_main_v5 (ix4 b h t d) = ix4 b t h d :=
  funext fun a => Fin.ext (by match a with | ⟨0, _⟩ => rfl | ⟨1, _⟩ => rfl | ⟨2, _⟩ => rfl | ⟨3, _⟩ => rfl)

/-- The queries by head: `(b, h, t, d)` is the query block at `(b, t, h·128+d)`. -/
theorem q_head (b : Fin 2) (h : Fin 16) (t : Fin 2048) (d : Fin 128) :
    val_main_v5 (F := Ideal) x0 x1 (ix4 b h t d) = val_main_v1 (F := Ideal) x0 x1 (ix3 b t (col h d)) := by
  rw [val_main_v5_apply, swap_idx, val_main_v4_apply, split_idx]

/-- The keys by head. -/
theorem k_head (b : Fin 2) (h : Fin 16) (t : Fin 2048) (d : Fin 128) :
    val_main_v7 (F := Ideal) x0 x1 (ix4 b h t d) = val_main_v2 (F := Ideal) x0 x1 (ix3 b t (col h d)) := by
  rw [val_main_v7_apply]
  refine (congrArg _ (swap_idx b h t d)).trans ?_
  rw [val_main_v6_apply]
  exact congrArg _ (split_idx b t h d)

/-- The values by head. -/
theorem v_head (b : Fin 2) (h : Fin 16) (t : Fin 2048) (d : Fin 128) :
    val_main_v9 (F := Ideal) x0 x1 (ix4 b h t d) = val_main_v3 (F := Ideal) x0 x1 (ix3 b t (col h d)) := by
  rw [val_main_v9_apply]
  refine (congrArg _ (swap_idx b h t d)).trans ?_
  rw [val_main_v8_apply]
  exact congrArg _ (split_idx b t h d)

/-! ## The scores of one head -/

/-- The scaled scores of head `h` of batch `b`: query position `t` against key position `s`. Dividing by the
    divisor is multiplying by `scale`. -/
theorem score_apply (b : Fin 2) (h : Fin 16) (t s : Fin 2048) :
    val_main_v12 (F := Ideal) x0 x1 (ix4 b h t s)
      = scores (fun d : Fin 128 => val_main_v1 (F := Ideal) x0 x1 (ix3 b t (col h d)))
          (fun (s' : Fin 2048) (d : Fin 128) => val_main_v2 (F := Ideal) x0 x1 (ix3 b s' (col h d))) s := by
  rw [val_main_v12_apply, val_main_v11_apply, val_main_cst_apply]
  refine (div_divisor _).trans ?_
  unfold scores
  refine congrArg (· * scale) ?_
  rw [val_main_v10_apply]
  refine Finset.sum_congr rfl fun d _ => ?_
  have el : lidx_main_v10 (ix4 b h t s) d = ix4 b h t d :=
    funext fun a => Fin.ext (by match a with | ⟨0, _⟩ => rfl | ⟨1, _⟩ => rfl | ⟨2, _⟩ => rfl | ⟨3, _⟩ => rfl)
  have er : ridx_main_v10 (ix4 b h t s) d = ix4 b h s d :=
    funext fun a => Fin.ext (by match a with | ⟨0, _⟩ => rfl | ⟨1, _⟩ => rfl | ⟨2, _⟩ => rfl | ⟨3, _⟩ => rfl)
  rw [el, er, q_head, k_head]

/-! ## The softmax of one row of scores -/

/-- The row maximum: the fold of `max` from `-∞` over the key positions. -/
theorem max_apply (b : Fin 2) (h : Fin 16) (t : Fin 2048) :
    val_main_v13 (F := Ideal) x0 x1 (ix3 b h t)
      = rowMax (fun s : Fin 2048 => val_main_v12 (F := Ideal) x0 x1 (ix4 b h t s)) := by
  unfold val_main_v13
  generalize val_main_v12 (F := Ideal) x0 x1 = y
  have hr : S2x16x2048x2048.Reduces [3] S2x16x2048 := by decide
  refine (Host.reduce_eq_fold_single (FloatOps.maximumf (F := Ideal) (φ := .f32)) y (val_main_cst_0 (F := Ideal))
    reducesTo_S2x16x2048x2048_S2x16x2048_d3 hr h_S_ (ix3 b h t)).trans ?_
  have e : (y ∘ hr.lift (ix3 b h t)) = fun s : Fin 2048 => y (ix4 b h t s) :=
    funext fun s => congrArg y (funext fun a => Fin.ext (by
      match a with | ⟨0, _⟩ => rfl | ⟨1, _⟩ => rfl | ⟨2, _⟩ => rfl | ⟨3, _⟩ => rfl))
  rw [e]
  rfl

/-- The shift subtracted from every score of the row: the row maximum (one more `max` with `-∞` changes nothing). -/
theorem shift_apply (b : Fin 2) (h : Fin 16) (t s : Fin 2048) :
    val_main_v17 (F := Ideal) x0 x1 (ix4 b h t s)
      = rowMax (fun s' : Fin 2048 => val_main_v12 (F := Ideal) x0 x1 (ix4 b h t s')) := by
  rw [val_main_v17_apply, val_main_v16_apply, val_main_v15_apply, val_main_v14_apply, val_main_cst_1_apply]
  have e : idx_main_v16 (idx_main_v17 (ix4 b h t s)) = ix3 b h t :=
    funext fun a => Fin.ext (by match a with | ⟨0, _⟩ => rfl | ⟨1, _⟩ => rfl | ⟨2, _⟩ => rfl)
  rw [e, max_apply]
  exact max_negInf_rowMax _

/-- The exponential of the shifted score. -/
theorem exp_apply (b : Fin 2) (h : Fin 16) (t s : Fin 2048) :
    val_main_v19 (F := Ideal) x0 x1 (ix4 b h t s)
      = expRow (fun s' : Fin 2048 => val_main_v12 (F := Ideal) x0 x1 (ix4 b h t s')) s := by
  rw [val_main_v19_apply, val_main_v18_apply, shift_apply]
  rfl

/-- The row sum of the exponentials (the zero it is added to changes nothing). -/
theorem sum_apply (b : Fin 2) (h : Fin 16) (t : Fin 2048) :
    val_main_v20 (F := Ideal) x0 x1 (ix3 b h t)
      = ∑ s : Fin 2048, expRow (fun s' : Fin 2048 => val_main_v12 (F := Ideal) x0 x1 (ix4 b h t s')) s := by
  rw [val_main_v20_apply, val_main_cst_2_apply]
  refine (zero_pattern_add _).trans ?_
  refine Finset.sum_congr rfl fun s _ => ?_
  have e : idx_main_v20 (ix3 b h t) s = ix4 b h t s :=
    funext fun a => Fin.ext (by match a with | ⟨0, _⟩ => rfl | ⟨1, _⟩ => rfl | ⟨2, _⟩ => rfl | ⟨3, _⟩ => rfl)
  rw [e, exp_apply]

/-- The softmax weight. -/
theorem prob_apply (b : Fin 2) (h : Fin 16) (t s : Fin 2048) :
    val_main_v23 (F := Ideal) x0 x1 (ix4 b h t s)
      = probs (fun s' : Fin 2048 => val_main_v12 (F := Ideal) x0 x1 (ix4 b h t s')) s := by
  rw [val_main_v23_apply, val_main_v22_apply, val_main_v21_apply]
  have e : idx_main_v21 (idx_main_v22 (ix4 b h t s)) = ix3 b h t :=
    funext fun a => Fin.ext (by match a with | ⟨0, _⟩ => rfl | ⟨1, _⟩ => rfl | ⟨2, _⟩ => rfl)
  rw [e, sum_apply, exp_apply]
  rfl

/-! ## One head's attention, and the heads side by side -/

/-- Head `h` of batch `b` at query position `t`, lane `d`: the specification's `attend` on the head's lanes of the
    three blocks. -/
theorem head_apply (b : Fin 2) (h : Fin 16) (t : Fin 2048) (d : Fin 128) :
    val_main_v24 (F := Ideal) x0 x1 (ix4 b h t d)
      = attend (fun d' : Fin 128 => val_main_v1 (F := Ideal) x0 x1 (ix3 b t (col h d')))
          (fun (s : Fin 2048) (d' : Fin 128) => val_main_v2 (F := Ideal) x0 x1 (ix3 b s (col h d')))
          (fun (s : Fin 2048) (d' : Fin 128) => val_main_v3 (F := Ideal) x0 x1 (ix3 b s (col h d'))) d := by
  rw [val_main_v24_apply]
  unfold attend
  refine Finset.sum_congr rfl fun s _ => ?_
  have el : lidx_main_v24 (ix4 b h t d) s = ix4 b h t s :=
    funext fun a => Fin.ext (by match a with | ⟨0, _⟩ => rfl | ⟨1, _⟩ => rfl | ⟨2, _⟩ => rfl | ⟨3, _⟩ => rfl)
  have er : ridx_main_v24 (ix4 b h t d) s = ix4 b h s d :=
    funext fun a => Fin.ext (by match a with | ⟨0, _⟩ => rfl | ⟨1, _⟩ => rfl | ⟨2, _⟩ => rfl | ⟨3, _⟩ => rfl)
  rw [el, er, prob_apply, v_head]
  have es : (fun s' : Fin 2048 => val_main_v12 (F := Ideal) x0 x1 (ix4 b h t s'))
      = scores (fun d' : Fin 128 => val_main_v1 (F := Ideal) x0 x1 (ix3 b t (col h d')))
          (fun (s' : Fin 2048) (d' : Fin 128) => val_main_v2 (F := Ideal) x0 x1 (ix3 b s' (col h d'))) :=
    funext fun s' => score_apply x0 x1 b h t s'
  rw [es]

/-- The context at `(b, t, c)`: column `c` is lane `c % 128` of head `c / 128`, so it is multi-head attention of the
    three blocks there. -/
theorem ctx_apply (b : Fin 2) (t c : Fin 2048) :
    val_main_v26 (F := Ideal) x0 x1 (ix3 b t c)
      = heads (val_main_v1 (F := Ideal) x0 x1) (val_main_v2 (F := Ideal) x0 x1) (val_main_v3 (F := Ideal) x0 x1) b t c := by
  rw [val_main_v26_apply, val_main_v25_apply]
  have e : idx_main_v25 (idx_main_v26 (ix3 b t c))
      = ix4 b (⟨c.val / 128, by have := c.isLt; omega⟩ : Fin 16) t (lane c) :=
    funext fun a => Fin.ext (by
      have hb := b.isLt; have ht := t.isLt; have hc := c.isLt
      match a with
      | ⟨0, _⟩ => show ((b.val * 2048 + t.val) * 2048 + c.val) / 4194304 = b.val; omega
      | ⟨1, _⟩ => show ((b.val * 2048 + t.val) * 2048 + c.val) / 128 % 16 = c.val / 128; omega
      | ⟨2, _⟩ => show ((b.val * 2048 + t.val) * 2048 + c.val) / 2048 % 2048 = t.val; omega
      | ⟨3, _⟩ => show ((b.val * 2048 + t.val) * 2048 + c.val) % 128 = c.val % 128; omega)
  rw [e, head_apply]
  rfl

end Cert.ReferenceIdeal.Stages

end
-- ==== Proof.Chain.lean ====
/-
  The kernel program's result, read back through its seven segments, is the reference's last stage.

  With `x`, `w`, `wo` the three argument arrays as launched:
  * the first stretch flattens `x` to `[4096, 2048]` (row `2048 b + t` is `x (b, t, ·)`) and changes the formats
    of the three arrays, which at the ideal instance changes nothing;
  * the projection region leaves `xflat · wᵀ`, whose entry `(2048 b + t, e)` is the reference's fused projection
    at `(b, t, e)`;
  * the second stretch cuts columns `0…2047`, `2048…4095`, `4096…6143` and unflattens each to `[2, 2048, 2048]`: the
    reference's query, key and value slices;
  * the attention region leaves `heads` of those three: the reference's attended values, heads side by side;
  * the third stretch flattens that to `[4096, 2048]`, the output projection's region multiplies by `woᵀ`, and the
    last stretch unflattens: entry `(b, t, e)` is the sum over `c` of the attended value `(b, t, c)` times `wo (e, c)`,
    the reference's result.
  A flattening or unflattening moves the entry at `(b, t, c)` to `(2048 b + t, c)` and back: both orders are row-major.
-/
import proofs.«125070_j85736137162885_2_alg».proof.Proof.Gen.KernelIdeal.Frame
import proofs.«125070_j85736137162885_2_alg».proof.Proof.ProjRegion
import proofs.«125070_j85736137162885_2_alg».proof.Proof.HeadsRegion
import proofs.«125070_j85736137162885_2_alg».proof.Proof.OutRegion
import proofs.«125070_j85736137162885_2_alg».proof.Proof.RefEnds
import proofs.«125070_j85736137162885_2_alg».proof.Proof.RefStages
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen Cert.SelfAttn
open Cert.ReferenceIdeal.Read Cert.ReferenceIdeal.Stages
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- Row `r` of the flattened input is `x (r / 2048, r % 2048, ·)`. -/
theorem xflat_apply (r : Fin 4096) (d : Fin 2048) :
    V1 m ρ c main_v1 (ix2 r d)
      = m ((c : Thread nD τ).loc main_arg0) (ix3 (⟨r.val / 2048, by have := r.isLt; omega⟩ : Fin 2) (⟨r.val % 2048, Nat.mod_lt _ (by norm_num)⟩ : Fin 2048) d) := by
  have e : (V1 m ρ c main_v1 : S4096x2048.Idx → EReal)
      = truncf (F := Ideal) .bf16 (shapeCast S4096x2048 (m ((c : Thread nD τ).loc main_arg0)) shapeCasts_S2x2048x2048_S4096x2048) bitsLt_bf16_f32 := by
    show StableHlo.after hostOps0 (W0 m ρ c) (Proc.devRef .tc main_v1) = _
    after_results
    rfl
  rw [e]
  show shapeCast S4096x2048 (m ((c : Thread nD τ).loc main_arg0)) shapeCasts_S2x2048x2048_S4096x2048 (ix2 r d) = _
  refine shapeCast_apply _ shapeCasts_S2x2048x2048_S4096x2048 (ix2 r d) _ ?_
  rewrite [Shape.rowMajor_val_three, Shape.rowMajor_val_two]
  have hr : r.val < 4096 := r.isLt
  show (r.val / 2048 * 2048 + r.val % 2048) * 2048 + d.val = r.val * 2048 + d.val
  omega

/-- The fused weight reaches the projection region as launched. -/
theorem w_eq : (V1 m ρ c main_v2 : S6144x2048.Idx → EReal) = m ((c : Thread nD τ).loc main_arg1) := by
  show StableHlo.after hostOps0 (W0 m ρ c) (Proc.devRef .tc main_v2) = _
  after_results
  rfl

/-- The projection region's output at `(r, e)` is the reference's fused projection at `(r / 2048, r % 2048, e)`. -/
theorem qkv_apply (r : Fin 4096) (e : Fin 6144) :
    W2 m ρ c (Proc.devRef .tc main_v4) (ix2 r e)
      = val_main_v0 (F := Ideal) (m ((c : Thread nD τ).loc main_arg0)) (m ((c : Thread nD τ).loc main_arg1))
          (ix3 (⟨r.val / 2048, by have := r.isLt; omega⟩ : Fin 2) (⟨r.val % 2048, Nat.mod_lt _ (by norm_num)⟩ : Fin 2048) e) := by
  have h4 : W2 m ρ c (Proc.devRef .tc main_v4) = ProjRegion.G (V1 m ρ c main_v1) (V1 m ρ c main_v2) :=
    (W2_arr m ρ c 2).trans (ProjRegion.final (V1 m ρ) c)
  rw [h4, proj_apply]
  show mmT (V1 m ρ c main_v1) (V1 m ρ c main_v2) r e = _
  unfold mmT
  refine Finset.sum_congr rfl fun d _ => ?_
  rw [xflat_apply, w_eq]

/-- A column slice of the projection's output, unflattened, at `(b, t, cc)`: the projection's output at row
    `2048 b + t`, column `off + cc`. -/
theorem slice_apply (off : Nat) (hoff : off + 2048 ≤ 6144) (hs : S4096x6144.Slices ![0, off] S4096x2048)
    (y : S4096x6144.Idx → EReal) (b : Fin 2) (t cc : Fin 2048) :
    shapeCast S2x2048x2048 (extractStridedSlice S4096x2048 ![0, off] y hs) shapeCasts_S4096x2048_S2x2048x2048 (ix3 b t cc)
      = y (ix2 (⟨b.val * 2048 + t.val, by have := b.isLt; have := t.isLt; omega⟩ : Fin 4096) (⟨off + cc.val, by have := cc.isLt; omega⟩ : Fin 6144)) := by
  have hb : b.val < 2 := b.isLt
  have ht : t.val < 2048 := t.isLt
  refine (shapeCast_apply _ shapeCasts_S4096x2048_S2x2048x2048 (ix3 b t cc)
    (ix2 (⟨b.val * 2048 + t.val, by omega⟩ : Fin 4096) cc) ?_).trans ?_
  · rewrite [Shape.rowMajor_val_three, Shape.rowMajor_val_two]
    show (b.val * 2048 + t.val) * 2048 + cc.val = (b.val * 2048 + t.val) * 2048 + cc.val
    rfl
  · refine extractStridedSlice_apply ![0, off] y hs _ _ (fun a => ?_)
    match a with
    | ⟨0, _⟩ => show b.val * 2048 + t.val = 0 + (b.val * 2048 + t.val); omega
    | ⟨1, _⟩ => show off + cc.val = off + cc.val; rfl

/-- The index `(2048 b + t) / 2048, (2048 b + t) % 2048` is `(b, t)`. -/
theorem unflat (b : Fin 2) (t : Fin 2048) (h1 : (b.val * 2048 + t.val) / 2048 < 2) (h2 : (b.val * 2048 + t.val) % 2048 < 2048) :
    (⟨(b.val * 2048 + t.val) / 2048, h1⟩ : Fin 2) = b ∧ (⟨(b.val * 2048 + t.val) % 2048, h2⟩ : Fin 2048) = t := by
  have hb : b.val < 2 := b.isLt
  have ht : t.val < 2048 := t.isLt
  exact ⟨Fin.ext (by show (b.val * 2048 + t.val) / 2048 = b.val; omega), Fin.ext (by show (b.val * 2048 + t.val) % 2048 = t.val; omega)⟩

/-- The query array the attention region finds is the reference's query slice. -/
theorem q_eq : (V3 m ρ c main_v6 : S2x2048x2048.Idx → EReal)
    = val_main_v1 (F := Ideal) (m ((c : Thread nD τ).loc main_arg0)) (m ((c : Thread nD τ).loc main_arg1)) := by
  have e : (V3 m ρ c main_v6 : S2x2048x2048.Idx → EReal)
      = shapeCast S2x2048x2048 (extractStridedSlice S4096x2048 ![0, 0] (W2 m ρ c (Proc.devRef .tc main_v4)) slices_S4096x6144_S4096x2048_0_0) shapeCasts_S4096x2048_S2x2048x2048 := by
    show StableHlo.after hostOps1 (W2 m ρ c) (Proc.devRef .tc main_v6) = _
    after_results
    rfl
  funext i
  obtain ⟨b, t, cc, rfl⟩ : ∃ (b : Fin 2) (t cc : Fin 2048), i = ix3 b t cc := ⟨i 0, i 1, i 2, eq_ix3 i⟩
  rw [e, slice_apply 0 (by norm_num), qkv_apply, slice_q]
  obtain ⟨u1, u2⟩ := unflat b t (by have := b.isLt; have := t.isLt; omega) (Nat.mod_lt _ (by norm_num))
  refine congrArg _ (funext fun a => ?_)
  match a with
  | ⟨0, _⟩ => exact u1
  | ⟨1, _⟩ => exact u2
  | ⟨2, _⟩ => exact Fin.ext (by show 0 + cc.val = cc.val; omega)

/-- The key array the attention region finds is the reference's key slice. -/
theorem k_eq : (V3 m ρ c main_v8 : S2x2048x2048.Idx → EReal)
    = val_main_v2 (F := Ideal) (m ((c : Thread nD τ).loc main_arg0)) (m ((c : Thread nD τ).loc main_arg1)) := by
  have e : (V3 m ρ c main_v8 : S2x2048x2048.Idx → EReal)
      = shapeCast S2x2048x2048 (extractStridedSlice S4096x2048 ![0, 2048] (W2 m ρ c (Proc.devRef .tc main_v4)) slices_S4096x6144_S4096x2048_0_2048) shapeCasts_S4096x2048_S2x2048x2048 := by
    show StableHlo.after hostOps1 (W2 m ρ c) (Proc.devRef .tc main_v8) = _
    after_results
    rfl
  funext i
  obtain ⟨b, t, cc, rfl⟩ : ∃ (b : Fin 2) (t cc : Fin 2048), i = ix3 b t cc := ⟨i 0, i 1, i 2, eq_ix3 i⟩
  rw [e, slice_apply 2048 (by norm_num), qkv_apply, slice_k]
  obtain ⟨u1, u2⟩ := unflat b t (by have := b.isLt; have := t.isLt; omega) (Nat.mod_lt _ (by norm_num))
  refine congrArg _ (funext fun a => ?_)
  match a with
  | ⟨0, _⟩ => exact u1
  | ⟨1, _⟩ => exact u2
  | ⟨2, _⟩ => rfl

/-- The value array the attention region finds is the reference's value slice. -/
theorem v_eq : (V3 m ρ c main_v10 : S2x2048x2048.Idx → EReal)
    = val_main_v3 (F := Ideal) (m ((c : Thread nD τ).loc main_arg0)) (m ((c : Thread nD τ).loc main_arg1)) := by
  have e : (V3 m ρ c main_v10 : S2x2048x2048.Idx → EReal)
      = shapeCast S2x2048x2048 (extractStridedSlice S4096x2048 ![0, 4096] (W2 m ρ c (Proc.devRef .tc main_v4)) slices_S4096x6144_S4096x2048_0_4096) shapeCasts_S4096x2048_S2x2048x2048 := by
    show StableHlo.after hostOps1 (W2 m ρ c) (Proc.devRef .tc main_v10) = _
    after_results
    rfl
  funext i
  obtain ⟨b, t, cc, rfl⟩ : ∃ (b : Fin 2) (t cc : Fin 2048), i = ix3 b t cc := ⟨i 0, i 1, i 2, eq_ix3 i⟩
  rw [e, slice_apply 4096 (by norm_num), qkv_apply, slice_v]
  obtain ⟨u1, u2⟩ := unflat b t (by have := b.isLt; have := t.isLt; omega) (Nat.mod_lt _ (by norm_num))
  refine congrArg _ (funext fun a => ?_)
  match a with
  | ⟨0, _⟩ => exact u1
  | ⟨1, _⟩ => exact u2
  | ⟨2, _⟩ => rfl

/-- The attention region's output is the reference's attended values, heads side by side. -/
theorem ctx_eq : (W4 m ρ c (Proc.devRef .tc main_v11) : S2x2048x2048.Idx → EReal)
    = val_main_v26 (F := Ideal) (m ((c : Thread nD τ).loc main_arg0)) (m ((c : Thread nD τ).loc main_arg1)) := by
  have h11 : W4 m ρ c (Proc.devRef .tc main_v11) = HeadsRegion.G (V3 m ρ c main_v6) (V3 m ρ c main_v8) (V3 m ρ c main_v10) :=
    (W4_arr m ρ c 3).trans (HeadsRegion.final (V3 m ρ) c)
  rw [h11, q_eq, k_eq, v_eq]
  funext i
  obtain ⟨b, t, cc, rfl⟩ : ∃ (b : Fin 2) (t cc : Fin 2048), i = ix3 b t cc := ⟨i 0, i 1, i 2, eq_ix3 i⟩
  rw [ctx_apply]
  rfl

/-- Row `r` of the flattened attended values. -/
theorem yflat_apply (r : Fin 4096) (cc : Fin 2048) :
    V5 m ρ c main_v12 (ix2 r cc)
      = val_main_v26 (F := Ideal) (m ((c : Thread nD τ).loc main_arg0)) (m ((c : Thread nD τ).loc main_arg1))
          (ix3 (⟨r.val / 2048, by have := r.isLt; omega⟩ : Fin 2) (⟨r.val % 2048, Nat.mod_lt _ (by norm_num)⟩ : Fin 2048) cc) := by
  have e : (V5 m ρ c main_v12 : S4096x2048.Idx → EReal)
      = shapeCast S4096x2048 (W4 m ρ c (Proc.devRef .tc main_v11)) shapeCasts_S2x2048x2048_S4096x2048 := by
    show StableHlo.after hostOps2 (W4 m ρ c) (Proc.devRef .tc main_v12) = _
    after_results
    rfl
  rw [e, ctx_eq]
  refine shapeCast_apply _ shapeCasts_S2x2048x2048_S4096x2048 (ix2 r cc) _ ?_
  rewrite [Shape.rowMajor_val_three, Shape.rowMajor_val_two]
  have hr : r.val < 4096 := r.isLt
  show (r.val / 2048 * 2048 + r.val % 2048) * 2048 + cc.val = r.val * 2048 + cc.val
  omega

/-- The output weight reaches the last region as launched: no stretch and no region before it writes its buffer. -/
theorem wo_eq : (V5 m ρ c main_v3 : S2048x2048.Idx → EReal) = m ((c : Thread nD τ).loc main_arg2) := by
  have e5 : W5 m ρ c (Proc.devRef .tc main_v3) = W4 m ρ c (Proc.devRef .tc main_v3) := by
    show StableHlo.after hostOps2 (W4 m ρ c) (Proc.devRef .tc main_v3) = _
    after_results
  have e3 : W3 m ρ c (Proc.devRef .tc main_v3) = W2 m ρ c (Proc.devRef .tc main_v3) := by
    show StableHlo.after hostOps1 (W2 m ρ c) (Proc.devRef .tc main_v3) = _
    after_results
  have e1 : (W1 m ρ c (Proc.devRef .tc main_v3) : S2048x2048.Idx → EReal) = m ((c : Thread nD τ).loc main_arg2) := by
    show StableHlo.after hostOps0 (W0 m ρ c) (Proc.devRef .tc main_v3) = _
    after_results
    rfl
  exact (e5.trans ((W4_of_ne m ρ c main_v3 (by decide)).trans (e3.trans (W2_of_ne m ρ c main_v3 (by decide))))).trans e1

/-- The last region's output at `(r, e)`. -/
theorem out_flat_apply (r : Fin 4096) (e : Fin 2048) :
    W6 m ρ c (Proc.devRef .tc main_v13) (ix2 r e)
      = ∑ cc : Fin 2048, val_main_v26 (F := Ideal) (m ((c : Thread nD τ).loc main_arg0)) (m ((c : Thread nD τ).loc main_arg1))
          (ix3 (⟨r.val / 2048, by have := r.isLt; omega⟩ : Fin 2) (⟨r.val % 2048, Nat.mod_lt _ (by norm_num)⟩ : Fin 2048) cc)
          * m ((c : Thread nD τ).loc main_arg2) (ix2 e cc) := by
  have h13 : W6 m ρ c (Proc.devRef .tc main_v13) = OutRegion.G (V5 m ρ c main_v12) (V5 m ρ c main_v3) :=
    (W6_arr m ρ c 2).trans (OutRegion.final (V5 m ρ) c)
  rw [h13]
  show mmT (V5 m ρ c main_v12) (V5 m ρ c main_v3) r e = _
  unfold mmT
  refine Finset.sum_congr rfl fun cc _ => ?_
  rw [yflat_apply, wo_eq]

/-- THE RESULT: the kernel program's result buffer ends at the reference's last stage of the launched arguments. -/
theorem result_eq : (W7 m ρ c (Proc.devRef .tc main_v14) : S2x2048x2048.Idx → EReal)
    = val_main_v27 (F := Ideal) (m ((c : Thread nD τ).loc main_arg0)) (m ((c : Thread nD τ).loc main_arg1)) (m ((c : Thread nD τ).loc main_arg2)) := by
  have e : (W7 m ρ c (Proc.devRef .tc main_v14) : S2x2048x2048.Idx → EReal)
      = shapeCast S2x2048x2048 (W6 m ρ c (Proc.devRef .tc main_v13)) shapeCasts_S4096x2048_S2x2048x2048 := by
    show StableHlo.after hostOps3 (W6 m ρ c) (Proc.devRef .tc main_v14) = _
    after_results
    rfl
  funext i
  obtain ⟨b, t, ee, rfl⟩ : ∃ (b : Fin 2) (t ee : Fin 2048), i = ix3 b t ee := ⟨i 0, i 1, i 2, eq_ix3 i⟩
  have hb : b.val < 2 := b.isLt
  have ht : t.val < 2048 := t.isLt
  rw [e, out_apply]
  refine (shapeCast_apply _ shapeCasts_S4096x2048_S2x2048x2048 (ix3 b t ee)
    (ix2 (⟨b.val * 2048 + t.val, by omega⟩ : Fin 4096) ee) ?_).trans ?_
  · rewrite [Shape.rowMajor_val_three, Shape.rowMajor_val_two]
    rfl
  · rw [out_flat_apply]
    obtain ⟨u1, u2⟩ := unflat b t (by omega) (Nat.mod_lt _ (by norm_num))
    show @Eq EReal _ _
    refine Finset.sum_congr rfl fun cc _ => ?_
    refine congrArg (· * _) (congrArg _ (funext fun a => ?_))
    match a with
    | ⟨0, _⟩ => exact u1
    | ⟨1, _⟩ => exact u2
    | ⟨2, _⟩ => rfl

end Cert.KernelIdeal.Chain

end
-- ==== Proof.lean ====
/-
  Self-attention as three kernels (a fused query/key/value projection, attention per batch, head and half of the
  query rows, an output projection) against the plain reference: equal results on the extended reals.

  Both programs compute, at batch `b`, position `t`, output column `e`,
      ∑ c, Y (b, t, c) · wo (e, c),
  where `Y (b, t, c)` attends, within the head `c / 128`, with the query row `(b, t)` over all 2048 positions of
  batch `b`: scores `(q · k_s) · σ`, their maximum from `-∞`, the exponentials of the shifted scores divided by their
  sum, and the weighted sum of the values at lane `c % 128`; queries, keys and values are the three column bands of
  `x · wᵀ`. Nothing in this needs the inputs finite: the two programs are the same sums, products, maxima,
  exponentials and quotients of the same numbers, and addition, multiplication and `max` of extended reals may be
  regrouped freely. They differ in three spellings only. The kernels work on flattened `[4096, 2048]` arrays and on
  blocks of them, and change float formats in between, which at the ideal instance is the identity. The reference
  takes one more `max` with `-∞` and adds a leading `0` to the sum, which change nothing. And the reference DIVIDES
  the scores by the number `11863283 / 1048576` where the kernel MULTIPLIES them by its named constant
  `"inv_sqrt_hd"`, which the certificate's table reads as the exact reciprocal `1048576 / 11863283`: on every extended
  real, dividing by a nonzero real is multiplying by its reciprocal.

  The modules: AttnSpec (the attention of one row, `A · Bᵀ`, the three small laws); Bodies (each kernel body's stored
  block as such a function of its loaded blocks); ProjRegion, HeadsRegion, OutRegion (each region's output array as
  one function of its input arrays, from the blocks and the cover); SegRun (the run of the seven segments with the
  result buffer named); Chain (that buffer read back through the segments: at each stage the reference's stage);
  RefStages (the reference's stages at an index). Here: the three frames, the one idealization step, and the
  pairing of the two runs.
-/
import proofs.«125070_j85736137162885_2_alg».proof.Defs
import proofs.«125070_j85736137162885_2_alg».proof.Proof.Gen.Kernel
import proofs.«125070_j85736137162885_2_alg».proof.Proof.Gen.Kernel.Skeleton
import proofs.«125070_j85736137162885_2_alg».proof.Proof.Gen.Kernel.Launch
import proofs.«125070_j85736137162885_2_alg».proof.Proof.Gen.Kernel.Points
import proofs.«125070_j85736137162885_2_alg».proof.Proof.Gen.Kernel.Frame
import proofs.«125070_j85736137162885_2_alg».proof.Proof.Gen.KernelIdeal
import proofs.«125070_j85736137162885_2_alg».proof.Proof.Gen.KernelIdeal.Skeleton
import proofs.«125070_j85736137162885_2_alg».proof.Proof.Gen.KernelIdeal.Launch
import proofs.«125070_j85736137162885_2_alg».proof.Proof.Gen.KernelIdeal.Points
import proofs.«125070_j85736137162885_2_alg».proof.Proof.Gen.KernelIdeal.Frame
import proofs.«125070_j85736137162885_2_alg».proof.Proof.Gen.ReferenceIdeal
import proofs.«125070_j85736137162885_2_alg».proof.Proof.Gen.Pre_finite_inputs
import proofs.«125070_j85736137162885_2_alg».proof.Proof.Gen.ReferenceIdeal.Run
import proofs.«125070_j85736137162885_2_alg».proof.Proof.Gen.ReferenceIdeal.Read
import proofs.«125070_j85736137162885_2_alg».proof.Proof.SegRun
import proofs.«125070_j85736137162885_2_alg».proof.Proof.Chain
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one idealization step: the table gives `"inv_sqrt_hd"` the value `1048576 / 11863283`, and at the ideal
    instance the printed constant is that value. -/
theorem preserves : Cert.preserves_Kernel_KernelIdeal :=
  IdealRules.named_const.statement Cert.KernelIdeal.κ "inv_sqrt_hd" .f32 0x3DB504F3#32 ((1048576 / 11863283 : ℝ) : EReal) rfl

/-- From memories agreeing on the arguments the kernel program's result buffer ends at the reference's last stage
    of the launched arguments (SegRun, Chain), and the reference's result is that stage of its own arguments. -/
theorem algebraic : Cert.algebraic_KernelIdeal_ReferenceIdeal := by
  intro m ρ m' ρ' _ hagree
  refine ⟨fun c => Cert.KernelIdeal.Gen.W7 m ρ c (Proc.devRef .tc Cert.KernelIdeal.main_v14),
    Cert.KernelIdeal.SegRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq m' c, (hagree c).1, (hagree c).2.1, (hagree c).2.2]
  exact (Cert.KernelIdeal.Chain.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
